-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x16 : Shape := ⟨2, ![4096, 16]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_

variable [Facts]

def fn {F : FTy → Type} [FloatOps F] (main_arg0 : FVec F S4096x4096 .f32) (main_arg1 : FVec F S4096x16 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  main_v8
-- ==== Kernel.lean ====
abbrev S4096x4096 : Shape := ⟨2, ![4096, 4096]⟩
abbrev S4096x16 : Shape := ⟨2, ![4096, 16]⟩
abbrev S256x4096 : Shape := ⟨2, ![256, 4096]⟩
abbrev S16x4096 : Shape := ⟨2, ![16, 4096]⟩
abbrev S256x16 : Shape := ⟨2, ![256, 16]⟩
abbrev S16x256 : Shape := ⟨2, ![16, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x16, .f32⟩
  | .hbm, ⟨2, _⟩ => ⟨S4096x4096, .f32⟩
  | .local _ .vmem, ⟨0, _⟩ => ⟨S256x4096, .f32⟩
  | .local _ .vmem, ⟨1, _⟩ => ⟨S256x4096, .f32⟩
  | .local _ .vmem, ⟨2, _⟩ => ⟨S4096x16, .f32⟩
  | .local _ .vmem, ⟨3, _⟩ => ⟨S256x4096, .f32⟩
  | .local _ .vmem, ⟨4, _⟩ => ⟨S256x4096, .f32⟩
  | .local _ .vmem, ⟨5, _⟩ => ⟨S4096x16, .f32⟩
  | .local _ .vmem, ⟨6, _⟩ => ⟨S16x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c256_i32 : BitVec 32 := 256#32
  let v9 : BitVec 32 := Scalar.muli arg1 c256_i32
  let v10 : Index := Scalar.indexCast v9
  let c0_5 : Index := 0#32
  ![v10.toNat, 0]
def k0_off2 (i : grid0.Coords) : Fin 2 → Nat :=
  let c0_7 : Index := 0#32
  let arg1 : BitVec 32 := BitVec.ofNat 32 (i 1).val
  let c256_i32_6 : BitVec 32 := 256#32
  let v15 : BitVec 32 := Scalar.muli arg1 c256_i32_6
  let v16 : Index := Scalar.indexCast v15
  ![0, v16.toNat]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off3 (i : grid0.Coords) : Fin 2 → Nat :=
  let arg1 : BitVec 32 := BitVec.ofNat 32 (i 1).val
  let c256_i32 : BitVec 32 := 256#32
  let v6 : BitVec 32 := Scalar.muli arg1 c256_i32
  let v7 : Index := Scalar.indexCast v6
  let c0 : Index := 0#32
  ![v7.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c15_i32 : BitVec 32 := 15#32
  let v1 : BitVec 32 := Scalar.select v0 arg1 c15_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S256x4096_S256x4096_0_0 : ∀ a, (![0, 0] : Fin 2 → Nat) a + S256x4096.size a ≤ S256x4096.size a
  h_S256x4096 : 0 < S256x4096.numel
  inb_S4096x16_S4096x16_0_0 : ∀ a, (![0, 0] : Fin 2 → Nat) a + S4096x16.size a ≤ S4096x16.size a
  h_S4096x16 : 0 < S4096x16.numel
  h_S256x16 : 0 < S256x16.numel
  shapeCasts_S256x16_S256x16 : S256x16.ShapeCasts S256x16
  transposes_S256x16_p1_0_S16x256 : S256x16.Transposes [1, 0] S16x256
  h_S16x256 : 0 < S16x256.numel
  shapeCasts_S16x256_S16x256 : S16x256.ShapeCasts S16x256
  inb_S16x4096_S16x4096_0_0 : ∀ a, (![0, 0] : Fin 2 → Nat) a + S16x4096.size a ≤ S16x4096.size a
  h_S16x4096 : 0 < S16x4096.numel
  dot_S256x4096_S4096x16_S256x16_1_0_0_1_n_n_wf : DotDims.WF S256x4096 S4096x16 S256x16 [1] [0] [0] [1] [] []
  dot_S256x16_S16x4096_S256x4096_1_0_0_1_n_n_wf : DotDims.WF S256x16 S16x4096 S256x4096 [1] [0] [0] [1] [] []
  hrank0 : 0 < grid0.rank
  k0_off1_inb : ∀ i : grid0.Coords, ∀ (k0_h1 : k0_cond1 i = 1#1), ∀ a, (k0_off1 i) a + S256x16.size a ≤ S4096x16.size a
  k0_off2_inb : ∀ i : grid0.Coords, ∀ (k0_h1 : k0_cond1 i = 1#1), ∀ a, (k0_off2 i) a + S16x256.size a ≤ S16x4096.size a
  k0_off3_inb : ∀ i : grid0.Coords, ∀ (k0_h2 : k0_cond2 i = 1#1), ∀ a, (k0_off3 i) a + S256x16.size a ≤ S4096x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S4096x16.size a
  hwx0_1 : ∀ i : grid0.Coords, EltTy.bits .f32 = 32 ∨ (Rect.block (s := S4096x16) S4096x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)

variable [Facts₀]

def dot_S256x4096_S4096x16_S256x16_1_0_0_1_n_n : DotDims S256x4096 S4096x16 S256x16 where
  lhsContracting := [1]
  rhsContracting := [0]
  lhsNonContracting := [0]
  rhsNonContracting := [1]
  lhsBatch := []
  rhsBatch := []
  wf := dot_S256x4096_S4096x16_S256x16_1_0_0_1_n_n_wf
def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x16 : Shape := ⟨2, ![4096, 16]⟩
abbrev S16x4096 : Shape := ⟨2, ![16, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x16, .f32⟩
  | .hbm, ⟨2, _⟩ => ⟨S4096x16, .f32⟩
  | .hbm, ⟨3, _⟩ => ⟨S16x4096, .f32⟩
  | .hbm, ⟨4, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  transposes_S4096x16_S16x4096_1_0 : S4096x16.Transposes [1, 0] S16x4096
  dot_S4096x4096_S4096x16_S4096x16_1_0_0_1_n_n_wf : DotDims.WF S4096x4096 S4096x16 S4096x16 [1] [0] [0] [1] [] []
  dot_S4096x16_S16x4096_S4096x4096_1_0_0_1_n_n_wf : DotDims.WF S4096x16 S16x4096 S4096x4096 [1] [0] [0] [1] [] []

variable [Facts₀]

def dot_S4096x4096_S4096x16_S4096x16_1_0_0_1_n_n : DotDims S4096x4096 S4096x16 S4096x16 where
  lhsContracting := [1]
  rhsContracting := [0]
  lhsNonContracting := [0]
  rhsNonContracting := [1]
  lhsBatch := []
  rhsBatch := []
  wf := dot_S4096x4096_S4096x16_S4096x16_1_0_0_1_n_n_wf
def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf

class Facts : Prop extends Facts₀ where

variable [Facts]
-- ==== Proof.Kernel.Sched.lean ====
/-
  The grid's schedule in closed form. The 32 points run in row-major order over (phase, row block):
  point t is phase t / 16 and row block t % 16. The encoder branch is taken at the points below 16,
  the decoder branch at the others; the result window is left alone and not written back during the
  encoder phase, and is stored and written back at every point of the decoder phase. Each fact is decided
  over the 32 points.
-/
import proofs.«174705_g68917045231885_cont_9to1c4b_61_19_alg».proof.Proof.Gen.Kernel.Frame
import proofs.«174705_g68917045231885_cont_9to1c4b_61_19_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-- The encoder branch is taken exactly at the first sixteen points. -/
theorem hcond1 : ∀ t : Fin cfg0.N, k0_cond1 (grid0.coords t) = 1#1 ↔ t.val < 16 :=
  (by decide +kernel : ∀ t : Fin grid0.N, k0_cond1 (grid0.coords t) = 1#1 ↔ t.val < 16)

/-- The decoder branch is taken exactly at the last sixteen points. -/
theorem hcond2 : ∀ t : Fin cfg0.N, k0_cond2 (grid0.coords t) = 1#1 ↔ 16 ≤ t.val :=
  (by decide +kernel : ∀ t : Fin grid0.N, k0_cond2 (grid0.coords t) = 1#1 ↔ 16 ≤ t.val)

/-- The row-block coordinate of point t. -/
theorem coord1 : ∀ t : Fin cfg0.N, ((grid0.coords t) 1).val = t.val % 16 :=
  (by decide +kernel : ∀ t : Fin grid0.N, ((grid0.coords t) 1).val = t.val % 16)

/-- The two input windows are never idle. -/
theorem live0 : ∀ t : Fin cfg0.N, cfg0.idle 0 (grid0.coords t) = false := by decide +kernel
theorem live1 : ∀ t : Fin cfg0.N, cfg0.idle 1 (grid0.coords t) = false := by decide +kernel

/-- During the encoder phase the result window is idle and is not written back. -/
theorem idle2 : ∀ t : Fin cfg0.N, t.val < 16 → cfg0.idle 2 (grid0.coords t) = true := by decide +kernel
theorem noFlush2 : ∀ t : Fin cfg0.N, t.val < 16 → (cfg0.win 2).flush t = false := by decide +kernel

/-- During the decoder phase it is stored into and written back at every point. -/
theorem live2 : ∀ t : Fin cfg0.N, 16 ≤ t.val → cfg0.idle 2 (grid0.coords t) = false := by decide +kernel
theorem flush2 : ∀ t : Fin cfg0.N, 16 ≤ t.val → (cfg0.win 2).flush t = true := by decide +kernel

/-- The block index of each window at each point: the adjacency's row block t in the encoder phase (pinned at 15
    afterwards), the whole weight matrix, and the result's row block t - 16 in the decoder phase. -/
theorem index0 : ∀ t : Fin cfg0.N, t.val < 16 → win0_0.index t = ![t.val, 0] := by decide +kernel
theorem index1 : ∀ t : Fin cfg0.N, win0_1.index t = ![0, 0] := by decide +kernel
theorem index2 : ∀ t : Fin cfg0.N, 16 ≤ t.val → win0_2.index t = ![t.val - 16, 0] := by decide +kernel

end Cert.Kernel.Body

end
-- ==== Proof.Kernel.Blocks.lean ====
/-
  The pieces the two phases compute, named once, at any float instance.
  Row block b of z = adj · W is what the encoder phase computes at point b from the adjacency's row block b and the
  whole weight matrix (`zb`); its transpose is what it stores beside it (`zt`). `ZT` is the 16 × 4096 array whose
  column block b is `zt b`: the transposed product once all sixteen points of the encoder phase have run.
  `outv t` is the decoder's block at point t: row block t % 16 of z times `ZT`.
-/
import proofs.«174705_g68917045231885_cont_9to1c4b_61_19_alg».proof.Proof.Gen.Kernel.Frame
import proofs.«174705_g68917045231885_cont_9to1c4b_61_19_alg».proof.Proof.Gen.Kernel.Skeleton
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ)

/-- The point of the encoder phase that handles row block `b`. -/
def pt (b : Fin 16) : Fin cfg0.N := ⟨b.val, by have := b.isLt; have h : cfg0.N = 32 := N_0; omega⟩

theorem pt_val (b : Fin 16) : (pt b).val = b.val := rfl

/-- Row block `b` of the encoder's product, as the body computes it from the two input blocks at point `b`. -/
def zb (c : Dev nD) (b : Fin 16) : FVec F S256x16 .f32 := k0_pay2 (iblk m c 0 (pt b)) (iblk m c 1 (pt b))

/-- The same block transposed, as the body stores it into the second scratch. -/
def zt (c : Dev nD) (b : Fin 16) : FVec F S16x256 .f32 := k0_pay3 (iblk m c 0 (pt b)) (iblk m c 1 (pt b))

/-- The transposed product assembled from its sixteen column blocks. -/
def ZT (c : Dev nD) : Vec F S16x4096 .f32 := fun y =>
  zt m c ⟨(y 1).val / 256, by have := ValueIdx.idx2_lt1 y; omega⟩
    (ValueIdx.ix2 ⟨(y 0).val, ValueIdx.idx2_lt0 y⟩ ⟨(y 1).val % 256, Nat.mod_lt _ (by norm_num)⟩)

/-- The decoder's block at point `t`: row block `t % 16` of the product times the transposed product. -/
def outv (c : Dev nD) (t : Fin cfg0.N) : Vec F S256x4096 .f32 :=
  k0_pay4 (zb m c ⟨t.val % 16, Nat.mod_lt _ (by norm_num)⟩) (ZT m c)

end Cert.Kernel.Body

end
-- ==== Proof.LibStoreRead.lean ====
/-
  One unit-stride store read back, stated without naming the new contents as a function.

  After a buffer holding `X` is stored into through the box of extents `size` at offsets `off` with payload `w`,
  the new contents `X'` are characterised by two facts: an index that sits at position `x` of the box reads `w x`,
  and an index that misses the box on some axis reads what `X` held. `Overwrites` is that pair of facts;
  `overwrites_read_writes` proves it of what a whole memref reads after one store. The two remaining lemmas are the
  degenerate cases used beside it: a load of the whole shape reads the contents, and a store of the whole shape leaves
  its payload.
-/
import Idealize.ShloMosaic.Lib.WritesUnit
import Idealize.ShloMosaic.Lib.WholeRead
import Idealize.ShloMosaic.Lib.Pipeline.Value

namespace Cert.LibStoreRead

open Idealize.ShloMosaic

variable {sig : RefSig} {κ : Kind} {sp : Space} {s : Shape} {e : EltTy} {Val : EltTy → Type}

/-- `X'` is `X` with the unit-stride box of extents `size` at offsets `off` overwritten by `w`: inside the box the
    payload at the index minus the offsets, outside it (missing on some axis) the old contents. -/
def Overwrites (off size : Fin s.rank → ℕ) (inb : ∀ a, off a + size a ≤ s.size a) (X X' : s.Idx → Val e)
    (w : (Rect.unit off size inb).shape.Idx → Val e) : Prop :=
  (∀ (y : s.Idx) (x : (Rect.unit off size inb).shape.Idx), (∀ a, (y a).val = off a + (x a).val) → X' y = w x) ∧
  (∀ (y : s.Idx) (a : Fin s.rank), ((y a).val < off a ∨ off a + size a ≤ (y a).val) → X' y = X y)

/-- What a whole memref held at the contents reading `X` reads after ONE store through a unit-stride box. -/
theorem overwrites_read_writes {m : Memref sig κ sp s e} (h : m.IsWhole) (X : s.Idx → Val e)
    (off size : Fin s.rank → ℕ) (inb : ∀ a, off a + size a ≤ s.size a) (w : (Rect.unit off size inb).shape.Idx → Val e) :
    Overwrites off size inb X
      (m.view.read Val (m.view.writes Val (h.unread X) [(⟨Rect.unit off size inb, w⟩ : View.Piece Val s e)])) w :=
  ⟨fun y x hx => View.read_writes_cons_unit_of_mem m.view (h.unread X) inb w [] y x rfl hx,
   fun y a ha => (View.read_writes_cons_unit_of_not_mem m.view (h.unread X) inb w [] y rfl a ha).trans
      (by rw [View.writes_nil, h.read_unread])⟩

/-- A load of the whole shape (offsets zero, however the zeros are spelt) through a whole memref reads its contents. -/
theorem load_whole {m : Memref sig κ sp s e} (h : m.IsWhole) (X : s.Idx → Val e) {off : Fin s.rank → ℕ}
    (hz : off = fun _ => 0) (inb : ∀ a, off a + s.size a ≤ s.size a) :
    View.readAt Val m.view (Rect.unit off s.size inb).toLoadRect (h.unread X) = X := by
  rw [View.readAt_eq_ld, h.read_unread, View.ld_unit_zero hz]

/-- ONE store of the whole shape leaves its payload, whatever the buffer held. -/
theorem read_store_whole (v : View sig κ sp s e) (f : v.ty.Contents Val) {off : Fin s.rank → ℕ}
    (hz : off = fun _ => 0) (inb : ∀ a, off a + s.size a ≤ s.size a) (w : (Rect.unit off s.size inb).shape.Idx → Val e) :
    v.read Val (v.writes Val f [(⟨Rect.unit off s.size inb, w⟩ : View.Piece Val s e)]) = w := by
  subst hz; funext y
  exact View.read_writes_cons_unit_of_mem v f inb w [] y y rfl (fun a => (Nat.zero_add _).symm)

/-- The zero offsets of a rank-2 access as the printed programs spell them. -/
theorem zeros2 : (![0, 0] : Fin 2 → ℕ) = fun _ => 0 := funext fun a => by fin_cases a <;> rfl

end Cert.LibStoreRead
-- ==== Proof.Kernel.Runs.lean ====
/-
  The kernel body run once in each phase, at any float instance, on any whole memrefs.
  Encoder phase: from the adjacency block `x0` and the weights `x1` the body stores the product block into a box of
  256 rows of the first scratch and its transpose into a box of 256 columns of the second; every other element of
  both scratches is kept (`Overwrites`). The two input buffers are handed back as they were; the result buffer is
  not touched.
  Decoder phase: the body loads 256 rows `v8` of the first scratch and the whole second scratch `s1`, and stores their
  product over the whole result buffer; both scratches are handed back as they were; the inputs are not touched.
-/
import proofs.«174705_g68917045231885_cont_9to1c4b_61_19_alg».proof.Proof.Gen.Kernel.Frame
import proofs.«174705_g68917045231885_cont_9to1c4b_61_19_alg».proof.Proof.Gen.Kernel.Skeleton
import proofs.«174705_g68917045231885_cont_9to1c4b_61_19_alg».proof.Proof.LibStoreRead

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen Cert.LibStoreRead

/-- The encoder phase's run. -/
theorem runA (c : Dev nD) (i : grid0.Coords) (arg2 : Memref sig .tc .vmem S256x4096 .f32) (harg2 : arg2.IsWhole) (arg3 : Memref sig .tc .vmem S4096x16 .f32) (harg3 : arg3.IsWhole) (arg4 : Memref sig .tc .vmem S256x4096 .f32) (harg4 : arg4.IsWhole) (arg5 : Memref sig .tc .vmem S4096x16 .f32) (harg5 : arg5.IsWhole) (arg6 : Memref sig .tc .vmem S16x4096 .f32) (harg6 : arg6.IsWhole)
    (hc0 : k0_cond1 i = 1#1) (hc1 : ¬ k0_cond2 i = 1#1)
    (x0 : Vec F S256x4096 .f32) (x1 : Vec F S4096x16 .f32) (s0 : Vec F S4096x16 .f32) (s1 : Vec F S16x4096 .f32)
    (E : Set ℕ) (K : PUnit → sProp 𝕄) :
    iprop(owns (c : Thread nD τ) arg2 fullShare x0 ∗ owns (c : Thread nD τ) arg3 fullShare x1
        ∗ owns (c : Thread nD τ) arg5 fullShare s0 ∗ owns (c : Thread nD τ) arg6 fullShare s1
        ∗ (iprop(owns (c : Thread nD τ) arg2 fullShare x0 ∗ owns (c : Thread nD τ) arg3 fullShare x1
            ∗ (∃ s0', ⌜Overwrites (s := S4096x16) (e := .f32) (Val := Elt F) (k0_off1 i) S256x16.size (k0_off1_inb i hc0) s0 s0' (k0_pay2 x0 x1)⌝ ∗ owns (c : Thread nD τ) arg5 fullShare s0')
            ∗ (∃ s1', ⌜Overwrites (s := S16x4096) (e := .f32) (Val := Elt F) (k0_off2 i) S16x256.size (k0_off2_inb i hc0) s1 s1' (k0_pay3 x0 x1)⌝ ∗ owns (c : Thread nD τ) arg6 fullShare s1')) -∗ K ⟨⟩))
      ⊢ wp frame (wpE (defs₀ (F := F)) Variants.none c none) E (cc0__fused_kernel i arg2 harg2 arg3 harg3 arg4 harg4 arg5 harg5 arg6 harg6) K := by
  simp only [cc0__fused_kernel_eq_skeleton]; unfold cc0__fused_kernel_skel
  unfold owns
  iintro ⟨⟨%f0, %hf0, H0⟩, ⟨%f1, %hf1, H1⟩, ⟨%f5, %hf5, H5⟩, ⟨%f6, %hf6, H6⟩, Hk⟩
  obtain rfl := harg2.eq_unread hf0; obtain rfl := harg3.eq_unread hf1
  obtain rfl := harg5.eq_unread hf5; obtain rfl := harg6.eq_unread hf6
  sl_exec (disch := first | exact hc0 | exact hc1)
  sl_step
  simp only [load_whole harg2 x0 zeros2, load_whole harg3 x1 zeros2]
  iapply Hk
  isplitl [H0]
  · iexists _; isplitr; · ipureintro; exact hf0
    iexact H0
  isplitl [H1]
  · iexists _; isplitr; · ipureintro; exact hf1
    iexact H1
  isplitl [H5]
  · iexists _; isplitr; · ipureintro; exact overwrites_read_writes harg5 s0 _ _ _ _
    iexists _; isplitr; · ipureintro; rfl
    iexact H5
  iexists _; isplitr; · ipureintro; exact overwrites_read_writes harg6 s1 _ _ _ _
  iexists _; isplitr; · ipureintro; rfl
  iexact H6

/-- The decoder phase's run. -/
theorem runB (c : Dev nD) (i : grid0.Coords) (arg2 : Memref sig .tc .vmem S256x4096 .f32) (harg2 : arg2.IsWhole) (arg3 : Memref sig .tc .vmem S4096x16 .f32) (harg3 : arg3.IsWhole) (arg4 : Memref sig .tc .vmem S256x4096 .f32) (harg4 : arg4.IsWhole) (arg5 : Memref sig .tc .vmem S4096x16 .f32) (harg5 : arg5.IsWhole) (arg6 : Memref sig .tc .vmem S16x4096 .f32) (harg6 : arg6.IsWhole)
    (hc0 : ¬ k0_cond1 i = 1#1) (hc1 : k0_cond2 i = 1#1)
    (s0 : Vec F S4096x16 .f32) (s1 : Vec F S16x4096 .f32) (v8 : Vec F S256x16 .f32)
    (hv8 : ∀ x, s0 ((Rect.unit (s := S4096x16) (k0_off3 i) S256x16.size (k0_off3_inb i hc1)).toLoadRect.idx x) = v8 x)
    (E : Set ℕ) (K : PUnit → sProp 𝕄) :
    iprop(owns (c : Thread nD τ) arg5 fullShare s0 ∗ owns (c : Thread nD τ) arg6 fullShare s1
        ∗ (∃ d, owns (c : Thread nD τ) arg4 fullShare d)
        ∗ (iprop(owns (c : Thread nD τ) arg5 fullShare s0 ∗ owns (c : Thread nD τ) arg6 fullShare s1
            ∗ owns (c : Thread nD τ) arg4 fullShare (k0_pay4 v8 s1)) -∗ K ⟨⟩))
      ⊢ wp frame (wpE (defs₀ (F := F)) Variants.none c none) E (cc0__fused_kernel i arg2 harg2 arg3 harg3 arg4 harg4 arg5 harg5 arg6 harg6) K := by
  simp only [cc0__fused_kernel_eq_skeleton]; unfold cc0__fused_kernel_skel
  unfold owns
  iintro ⟨⟨%f5, %hf5, H5⟩, ⟨%f6, %hf6, H6⟩, ⟨%d4, %f4, -, H4⟩, Hk⟩
  obtain rfl := harg5.eq_unread hf5; obtain rfl := harg6.eq_unread hf6
  sl_exec (disch := first | exact hc0 | exact hc1)
  sl_step
  have e8 : View.readAt (Elt F) arg5.view (Rect.unit (s := S4096x16) (k0_off3 i) S256x16.size (k0_off3_inb i hc1)).toLoadRect (harg5.unread s0) = v8 :=
    funext fun x => (harg5.readAt_unread s0 _ x).trans (hv8 x)
  simp only [e8, load_whole harg6 s1 zeros2]
  iapply Hk
  isplitl [H5]
  · iexists _; isplitr; · ipureintro; exact hf5
    iexact H5
  isplitl [H6]
  · iexists _; isplitr; · ipureintro; exact hf6
    iexact H6
  iexists _; isplitr; swap; · iexact H4
  ipureintro; exact read_store_whole _ _ zeros2 _ _

end Cert.Kernel.Body

end
-- ==== Proof.Kernel.Body.lean ====
/-
  The frame run of the fused kernel, with what its two scratch buffers hold tracked point by point, at any float
  instance.

  The invariant before point n: the first scratch holds row block b of z = adj · W for every b < n (`zb b`), the
  second holds its transpose in column block b (`zt b`); elsewhere both hold anything. An encoder point stores block
  t into rows 256 t … 256 t + 255 (columns for the transpose) and keeps the rest, so the invariant moves from t to
  t + 1. From point 16 on every block is there: the second scratch IS the transposed product `ZT`, the rows the
  decoder loads are `zb (t % 16)`, and the block it stores is `outv t`; the scratches are kept, so the invariant
  stays. During the encoder phase the result window is idle and handed back as found.
-/
import proofs.«174705_g68917045231885_cont_9to1c4b_61_19_alg».proof.Proof.Kernel.Sched
import proofs.«174705_g68917045231885_cont_9to1c4b_61_19_alg».proof.Proof.Kernel.Blocks
import proofs.«174705_g68917045231885_cont_9to1c4b_61_19_alg».proof.Proof.Kernel.Runs

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen Cert.LibStoreRead

variable (m : (ℓ : Loc nD τ sig) → Buf (Elt F) ℓ) (ρ : Dev nD → PrngReg)

/-! ## The memrefs the body is called with -/

abbrev scM0 : Memref sig .tc .vmem S4096x16 .f32 := Memref.whole cc0_scratch0
abbrev scM1 : Memref sig .tc .vmem S16x4096 .f32 := Memref.whole cc0_scratch1
abbrev ms0 (t : Fin cfg0.N) : Memref sig .tc .vmem S256x4096 .f32 := win0_0.stage (cfg0.slots t 0)
abbrev ms1 (t : Fin cfg0.N) : Memref sig .tc .vmem S4096x16 .f32 := win0_1.stage (cfg0.slots t 1)
abbrev ms2 (t : Fin cfg0.N) : Memref sig .tc .vmem S256x4096 .f32 := win0_2.stage (cfg0.slots t 2)

/-- The class invariant spelt out: both scratches owned at some contents, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The invariant -/

/-- Before point `n`: every row block below `n` of the product is in the first scratch, and its transpose in the
    second. -/
def Inv (c : Dev nD) (n : ℕ) (s0 : Vec F S4096x16 .f32) (s1 : Vec F S16x4096 .f32) : Prop :=
  (∀ b : Fin 16, b.val < n → ∀ (y : S4096x16.Idx) (x : S256x16.Idx),
      (y 0).val = 256 * b.val + (x 0).val → (y 1).val = (x 1).val → s0 y = zb m c b x) ∧
  (∀ b : Fin 16, b.val < n → ∀ (y : S16x4096.Idx) (x : S16x256.Idx),
      (y 0).val = (x 0).val → (y 1).val = 256 * b.val + (x 1).val → s1 y = zt m c b x)

/-- The region invariant before point `n`. -/
def Phi (c : Dev nD) (n : ℕ) : sProp 𝕄 :=
  iprop(∃ s0 s1, ⌜Inv m c n s0 s1⌝ ∗ owns (c : Thread nD τ) scM0 fullShare s0 ∗ owns (c : Thread nD τ) scM1 fullShare s1 ∗ (∃ r, prngReg c r))

theorem inv_zero (c : Dev nD) (s0 : Vec F S4096x16 .f32) (s1 : Vec F S16x4096 .f32) : Inv m c 0 s0 s1 :=
  ⟨fun _ hb => absurd hb (Nat.not_lt_zero _), fun _ hb => absurd hb (Nat.not_lt_zero _)⟩

/-- Once all sixteen blocks are there, more points change nothing. -/
theorem inv_full (c : Dev nD) (n n' : ℕ) (hn : 16 ≤ n) (s0 : Vec F S4096x16 .f32) (s1 : Vec F S16x4096 .f32)
    (h : Inv m c n s0 s1) : Inv m c n' s0 s1 :=
  ⟨fun b _ => h.1 b (lt_of_lt_of_le b.isLt hn), fun b _ => h.2 b (lt_of_lt_of_le b.isLt hn)⟩

/-- An encoder point moves the invariant one block on. -/
theorem inv_step (c : Dev nD) (t : Fin cfg0.N) (ht : t.val < 16)
    (s0 s0' : Vec F S4096x16 .f32) (s1 s1' : Vec F S16x4096 .f32) (hI : Inv m c t.val s0 s1)
    (inb0 : ∀ a, k0_off1 (grid0.coords t) a + S256x16.size a ≤ S4096x16.size a)
    (inb1 : ∀ a, k0_off2 (grid0.coords t) a + S16x256.size a ≤ S16x4096.size a)
    (h0 : Overwrites (s := S4096x16) (e := .f32) (Val := Elt F) (k0_off1 (grid0.coords t)) S256x16.size inb0 s0 s0' (k0_pay2 (iblk m c 0 t) (iblk m c 1 t)))
    (h1 : Overwrites (s := S16x4096) (e := .f32) (Val := Elt F) (k0_off2 (grid0.coords t)) S16x256.size inb1 s1 s1' (k0_pay3 (iblk m c 0 t) (iblk m c 1 t))) :
    Inv m c (t.val + 1) s0' s1' := by
  have hc : ((grid0.coords t) 1).val = t.val := by rw [coord1 t]; omega
  have o10 : k0_off1 (grid0.coords t) 0 = 256 * t.val := by rw [k0_off1_eq]; show 256 * ((grid0.coords t) 1).val = _; rw [hc]
  have o11 : k0_off1 (grid0.coords t) 1 = 0 := by rw [k0_off1_eq]; rfl
  have o20 : k0_off2 (grid0.coords t) 0 = 0 := by rw [k0_off2_eq]; rfl
  have o21 : k0_off2 (grid0.coords t) 1 = 256 * t.val := by rw [k0_off2_eq]; show 256 * ((grid0.coords t) 1).val = _; rw [hc]
  refine ⟨fun b hb y x hy0 hy1 => ?_, fun b hb y x hy0 hy1 => ?_⟩
  · have hx0 : (x 0).val < 256 := (x 0).isLt
    by_cases hbt : b.val < t.val
    · refine (h0.2 y 0 (Or.inl ?_)).trans (hI.1 b hbt y x hy0 hy1)
      rw [o10]; omega
    · have hbe : t = pt b := Fin.ext (by rw [pt_val]; omega)
      subst hbe
      refine h0.1 y x (Fin.forall_fin_two.mpr ⟨?_, ?_⟩)
      · rw [o10, pt_val]; exact hy0
      · rw [o11, Nat.zero_add]; exact hy1
  · have hx1 : (x 1).val < 256 := (x 1).isLt
    by_cases hbt : b.val < t.val
    · refine (h1.2 y 1 (Or.inl ?_)).trans (hI.2 b hbt y x hy0 hy1)
      rw [o21]; omega
    · have hbe : t = pt b := Fin.ext (by rw [pt_val]; omega)
      subst hbe
      refine h1.1 y x (Fin.forall_fin_two.mpr ⟨?_, ?_⟩)
      · rw [o20, Nat.zero_add]; exact hy0
      · rw [o21, pt_val]; exact hy1

/-- With every block there, the second scratch is the transposed product. -/
theorem inv_ZT (c : Dev nD) (n : ℕ) (hn : 16 ≤ n) (s0 : Vec F S4096x16 .f32) (s1 : Vec F S16x4096 .f32)
    (h : Inv m c n s0 s1) : s1 = ZT m c := by
  funext y
  have hy1 : (y 1).val < 4096 := ValueIdx.idx2_lt1 y
  exact h.2 ⟨(y 1).val / 256, by omega⟩ (lt_of_lt_of_le (by show (y 1).val / 256 < 16; omega) hn) y _ rfl
    (by show (y 1).val = 256 * ((y 1).val / 256) + (y 1).val % 256; omega)

/-- With every block there, the rows the decoder loads at point `t` are row block `t % 16` of the product. -/
theorem inv_rows (c : Dev nD) (t : Fin cfg0.N) (ht : 16 ≤ t.val) (s0 : Vec F S4096x16 .f32) (s1 : Vec F S16x4096 .f32)
    (h : Inv m c t.val s0 s1) (inb : ∀ a, k0_off3 (grid0.coords t) a + S256x16.size a ≤ S4096x16.size a)
    (x : (Rect.unit (s := S4096x16) (k0_off3 (grid0.coords t)) S256x16.size inb).toLoadRect.shape.Idx) :
    s0 ((Rect.unit (s := S4096x16) (k0_off3 (grid0.coords t)) S256x16.size inb).toLoadRect.idx x)
      = zb m c ⟨t.val % 16, Nat.mod_lt _ (by norm_num)⟩ x := by
  have o30 : k0_off3 (grid0.coords t) 0 = 256 * (t.val % 16) := by rw [k0_off3_eq]; show 256 * ((grid0.coords t) 1).val = _; rw [coord1 t]
  have o31 : k0_off3 (grid0.coords t) 1 = 0 := by rw [k0_off3_eq]; rfl
  refine h.1 ⟨t.val % 16, Nat.mod_lt _ (by norm_num)⟩ (lt_of_lt_of_le (Nat.mod_lt _ (by norm_num)) ht) _ x ?_ ?_
  · show k0_off3 (grid0.coords t) 0 + 1 * (x 0).val = 256 * (t.val % 16) + (x 0).val
    rw [o30, Nat.one_mul]
  · show k0_off3 (grid0.coords t) 1 + 1 * (x 1).val = (x 1).val
    rw [o31, Nat.one_mul, Nat.zero_add]

/-! ## The proof data -/

/-- The arrays as the region finds them; after the body each input's buffer at its block, the result's at the
    decoder's block; the invariant `Phi`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outv m c t
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outv m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.castSucc = Phi m c t.val from rfl, show (dats m 0 c).Φ t.succ = Phi m c (t.val + 1) from rfl]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  unfold Phi
  by_cases h : t.val < 16
  · rw [Dat.leavesExact_idle (dats m 0 c) 2 t (idle2 t h) (noFlush2 t h)]
    iintro ⟨⟨%s0, %s1, %hI, HS0, HS1, Hg⟩, Ho, ⟨%d0, H0⟩, ⟨%d1, H1⟩, H2⟩
    iapply (runA c (grid0.coords t) _ _ _ _ _ _ _ _ _ _ ((hcond1 t).mpr h) (fun h' => absurd ((hcond2 t).mp h') (by omega)) (iblk m c 0 t) (iblk m c 1 t) s0 s1 Set.univ _)
    isplitl [H0]; · iexact H0
    isplitl [H1]; · iexact H1
    isplitl [HS0]; · iexact HS0
    isplitl [HS1]; · iexact HS1
    iintro ⟨H0, H1, ⟨%s0', %hs0, HS0⟩, ⟨%s1', %hs1, HS1⟩⟩
    isplitl [HS0 HS1 Hg]
    · iexists s0'; iexists s1'; isplitr
      · ipureintro; exact inv_step m c t h s0 s0' s1 s1' hI _ _ hs0 hs1
      isplitl [HS0]; · iexact HS0
      isplitl [HS1]; · iexact HS1
      iexact Hg
    isplitl [Ho]; · iexact Ho
    isplitl [H0]; · iexact H0
    isplitl [H1]; · iexact H1
    iexact H2
  · have h16 : 16 ≤ t.val := Nat.le_of_not_lt h
    rw [show (dats m 0 c).leavesExact 2 t = owns (c : Thread nD τ) (ms2 t) fullShare ((dats m 0 c).after 2 t) from by
      unfold Dat.leavesExact; rw [live2 t h16], after2]
    iintro ⟨⟨%s0, %s1, %hI, HS0, HS1, Hg⟩, Ho, ⟨%d0, H0⟩, ⟨%d1, H1⟩, ⟨%d2, H2⟩⟩
    obtain rfl : s1 = ZT m c := inv_ZT m c t.val h16 s0 s1 hI
    iapply (runB c (grid0.coords t) _ _ _ _ _ _ _ _ _ _ (fun h' => h ((hcond1 t).mp h')) ((hcond2 t).mpr h16) s0 (ZT m c)
      (zb m c ⟨t.val % 16, Nat.mod_lt _ (by norm_num)⟩) (inv_rows m c t h16 s0 (ZT m c) hI _) Set.univ _)
    isplitl [HS0]; · iexact HS0
    isplitl [HS1]; · iexact HS1
    isplitl [H2]; · iexists _; iexact H2
    iintro ⟨HS0, HS1, H2⟩
    isplitl [HS0 HS1 Hg]
    · iexists s0; iexists (ZT m c); isplitr
      · ipureintro; exact inv_full m c t.val (t.val + 1) h16 s0 (ZT m c) hI
      isplitl [HS0]; · iexact HS0
      isplitl [HS1]; · iexact HS1
      iexact Hg
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Into and out of the invariant -/

theorem hin (c : Dev nD) : Pipeline.ΦA spec0 c ⊢ (dats m 0 c).Φ 0 := by
  rw [show (dats m 0 c).Φ 0 = Phi m c 0 from rfl, PhiA_eq]
  unfold Phi
  iintro ⟨⟨⟨%d0, H0⟩, ⟨%d1, H1⟩⟩, Hg⟩
  iexists d0; iexists d1; isplitr
  · ipureintro; exact inv_zero m c d0 d1
  isplitl [H0]; · iexact H0
  isplitl [H1]; · iexact H1
  iexact Hg

theorem hout (c : Dev nD) : (dats m 0 c).Φ (Fin.last cfg0.N) ⊢ Pipeline.ΦA spec0 c := by
  rw [show (dats m 0 c).Φ (Fin.last cfg0.N) = Phi m c (Fin.last cfg0.N).val from rfl, PhiA_eq]
  unfold Phi
  iintro ⟨%s0, %s1, -, H0, H1, Hg⟩
  isplitl [H0 H1]
  · isplitl [H0]
    · iexists _; iexact H0
    iexists _; iexact H1
  iexact Hg

/-! ## The run and the frame -/

set_option backward.isDefEq.respectTransparency.types false in
/-- Every weakly fair execution of @main terminates, and every final state has every array of the pipeline at
    what the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KernelIdeal.Sched.lean ====
/-
  The grid's schedule in closed form. The 32 points run in row-major order over (phase, row block):
  point t is phase t / 16 and row block t % 16. The encoder branch is taken at the points below 16,
  the decoder branch at the others; the result window is left alone and not written back during the
  encoder phase, and is stored and written back at every point of the decoder phase. Each fact is decided
  over the 32 points.
-/
import proofs.«174705_g68917045231885_cont_9to1c4b_61_19_alg».proof.Proof.Gen.KernelIdeal.Frame
import proofs.«174705_g68917045231885_cont_9to1c4b_61_19_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-- The encoder branch is taken exactly at the first sixteen points. -/
theorem hcond1 : ∀ t : Fin cfg0.N, k0_cond1 (grid0.coords t) = 1#1 ↔ t.val < 16 :=
  (by decide +kernel : ∀ t : Fin grid0.N, k0_cond1 (grid0.coords t) = 1#1 ↔ t.val < 16)

/-- The decoder branch is taken exactly at the last sixteen points. -/
theorem hcond2 : ∀ t : Fin cfg0.N, k0_cond2 (grid0.coords t) = 1#1 ↔ 16 ≤ t.val :=
  (by decide +kernel : ∀ t : Fin grid0.N, k0_cond2 (grid0.coords t) = 1#1 ↔ 16 ≤ t.val)

/-- The row-block coordinate of point t. -/
theorem coord1 : ∀ t : Fin cfg0.N, ((grid0.coords t) 1).val = t.val % 16 :=
  (by decide +kernel : ∀ t : Fin grid0.N, ((grid0.coords t) 1).val = t.val % 16)

/-- The two input windows are never idle. -/
theorem live0 : ∀ t : Fin cfg0.N, cfg0.idle 0 (grid0.coords t) = false := by decide +kernel
theorem live1 : ∀ t : Fin cfg0.N, cfg0.idle 1 (grid0.coords t) = false := by decide +kernel

/-- During the encoder phase the result window is idle and is not written back. -/
theorem idle2 : ∀ t : Fin cfg0.N, t.val < 16 → cfg0.idle 2 (grid0.coords t) = true := by decide +kernel
theorem noFlush2 : ∀ t : Fin cfg0.N, t.val < 16 → (cfg0.win 2).flush t = false := by decide +kernel

/-- During the decoder phase it is stored into and written back at every point. -/
theorem live2 : ∀ t : Fin cfg0.N, 16 ≤ t.val → cfg0.idle 2 (grid0.coords t) = false := by decide +kernel
theorem flush2 : ∀ t : Fin cfg0.N, 16 ≤ t.val → (cfg0.win 2).flush t = true := by decide +kernel

/-- The block index of each window at each point: the adjacency's row block t in the encoder phase (pinned at 15
    afterwards), the whole weight matrix, and the result's row block t - 16 in the decoder phase. -/
theorem index0 : ∀ t : Fin cfg0.N, t.val < 16 → win0_0.index t = ![t.val, 0] := by decide +kernel
theorem index1 : ∀ t : Fin cfg0.N, win0_1.index t = ![0, 0] := by decide +kernel
theorem index2 : ∀ t : Fin cfg0.N, 16 ≤ t.val → win0_2.index t = ![t.val - 16, 0] := by decide +kernel

end Cert.KernelIdeal.Body

end
-- ==== Proof.KernelIdeal.Blocks.lean ====
/-
  The pieces the two phases compute, named once, at any float instance.
  Row block b of z = adj · W is what the encoder phase computes at point b from the adjacency's row block b and the
  whole weight matrix (`zb`); its transpose is what it stores beside it (`zt`). `ZT` is the 16 × 4096 array whose
  column block b is `zt b`: the transposed product once all sixteen points of the encoder phase have run.
  `outv t` is the decoder's block at point t: row block t % 16 of z times `ZT`.
-/
import proofs.«174705_g68917045231885_cont_9to1c4b_61_19_alg».proof.Proof.Gen.KernelIdeal.Frame
import proofs.«174705_g68917045231885_cont_9to1c4b_61_19_alg».proof.Proof.Gen.KernelIdeal.Skeleton
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ)

/-- The point of the encoder phase that handles row block `b`. -/
def pt (b : Fin 16) : Fin cfg0.N := ⟨b.val, by have := b.isLt; have h : cfg0.N = 32 := N_0; omega⟩

theorem pt_val (b : Fin 16) : (pt b).val = b.val := rfl

/-- Row block `b` of the encoder's product, as the body computes it from the two input blocks at point `b`. -/
def zb (c : Dev nD) (b : Fin 16) : FVec F S256x16 .f32 := k0_pay2 (iblk m c 0 (pt b)) (iblk m c 1 (pt b))

/-- The same block transposed, as the body stores it into the second scratch. -/
def zt (c : Dev nD) (b : Fin 16) : FVec F S16x256 .f32 := k0_pay3 (iblk m c 0 (pt b)) (iblk m c 1 (pt b))

/-- The transposed product assembled from its sixteen column blocks. -/
def ZT (c : Dev nD) : Vec F S16x4096 .f32 := fun y =>
  zt m c ⟨(y 1).val / 256, by have := ValueIdx.idx2_lt1 y; omega⟩
    (ValueIdx.ix2 ⟨(y 0).val, ValueIdx.idx2_lt0 y⟩ ⟨(y 1).val % 256, Nat.mod_lt _ (by norm_num)⟩)

/-- The decoder's block at point `t`: row block `t % 16` of the product times the transposed product. -/
def outv (c : Dev nD) (t : Fin cfg0.N) : Vec F S256x4096 .f32 :=
  k0_pay4 (zb m c ⟨t.val % 16, Nat.mod_lt _ (by norm_num)⟩) (ZT m c)

end Cert.KernelIdeal.Body

end
-- ==== Proof.KernelIdeal.Runs.lean ====
/-
  The kernel body run once in each phase, at any float instance, on any whole memrefs.
  Encoder phase: from the adjacency block `x0` and the weights `x1` the body stores the product block into a box of
  256 rows of the first scratch and its transpose into a box of 256 columns of the second; every other element of
  both scratches is kept (`Overwrites`). The two input buffers are handed back as they were; the result buffer is
  not touched.
  Decoder phase: the body loads 256 rows `v8` of the first scratch and the whole second scratch `s1`, and stores their
  product over the whole result buffer; both scratches are handed back as they were; the inputs are not touched.
-/
import proofs.«174705_g68917045231885_cont_9to1c4b_61_19_alg».proof.Proof.Gen.KernelIdeal.Frame
import proofs.«174705_g68917045231885_cont_9to1c4b_61_19_alg».proof.Proof.Gen.KernelIdeal.Skeleton
import proofs.«174705_g68917045231885_cont_9to1c4b_61_19_alg».proof.Proof.LibStoreRead

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Cert.LibStoreRead

/-- The encoder phase's run. -/
theorem runA (c : Dev nD) (i : grid0.Coords) (arg2 : Memref sig .tc .vmem S256x4096 .f32) (harg2 : arg2.IsWhole) (arg3 : Memref sig .tc .vmem S4096x16 .f32) (harg3 : arg3.IsWhole) (arg4 : Memref sig .tc .vmem S256x4096 .f32) (harg4 : arg4.IsWhole) (arg5 : Memref sig .tc .vmem S4096x16 .f32) (harg5 : arg5.IsWhole) (arg6 : Memref sig .tc .vmem S16x4096 .f32) (harg6 : arg6.IsWhole)
    (hc0 : k0_cond1 i = 1#1) (hc1 : ¬ k0_cond2 i = 1#1)
    (x0 : Vec F S256x4096 .f32) (x1 : Vec F S4096x16 .f32) (s0 : Vec F S4096x16 .f32) (s1 : Vec F S16x4096 .f32)
    (E : Set ℕ) (K : PUnit → sProp 𝕄) :
    iprop(owns (c : Thread nD τ) arg2 fullShare x0 ∗ owns (c : Thread nD τ) arg3 fullShare x1
        ∗ owns (c : Thread nD τ) arg5 fullShare s0 ∗ owns (c : Thread nD τ) arg6 fullShare s1
        ∗ (iprop(owns (c : Thread nD τ) arg2 fullShare x0 ∗ owns (c : Thread nD τ) arg3 fullShare x1
            ∗ (∃ s0', ⌜Overwrites (s := S4096x16) (e := .f32) (Val := Elt F) (k0_off1 i) S256x16.size (k0_off1_inb i hc0) s0 s0' (k0_pay2 x0 x1)⌝ ∗ owns (c : Thread nD τ) arg5 fullShare s0')
            ∗ (∃ s1', ⌜Overwrites (s := S16x4096) (e := .f32) (Val := Elt F) (k0_off2 i) S16x256.size (k0_off2_inb i hc0) s1 s1' (k0_pay3 x0 x1)⌝ ∗ owns (c : Thread nD τ) arg6 fullShare s1')) -∗ K ⟨⟩))
      ⊢ wp frame (wpE (defs₀ (F := F)) Variants.none c none) E (cc0__fused_kernel i arg2 harg2 arg3 harg3 arg4 harg4 arg5 harg5 arg6 harg6) K := by
  simp only [cc0__fused_kernel_eq_skeleton]; unfold cc0__fused_kernel_skel
  unfold owns
  iintro ⟨⟨%f0, %hf0, H0⟩, ⟨%f1, %hf1, H1⟩, ⟨%f5, %hf5, H5⟩, ⟨%f6, %hf6, H6⟩, Hk⟩
  obtain rfl := harg2.eq_unread hf0; obtain rfl := harg3.eq_unread hf1
  obtain rfl := harg5.eq_unread hf5; obtain rfl := harg6.eq_unread hf6
  sl_exec (disch := first | exact hc0 | exact hc1)
  sl_step
  simp only [load_whole harg2 x0 zeros2, load_whole harg3 x1 zeros2]
  iapply Hk
  isplitl [H0]
  · iexists _; isplitr; · ipureintro; exact hf0
    iexact H0
  isplitl [H1]
  · iexists _; isplitr; · ipureintro; exact hf1
    iexact H1
  isplitl [H5]
  · iexists _; isplitr; · ipureintro; exact overwrites_read_writes harg5 s0 _ _ _ _
    iexists _; isplitr; · ipureintro; rfl
    iexact H5
  iexists _; isplitr; · ipureintro; exact overwrites_read_writes harg6 s1 _ _ _ _
  iexists _; isplitr; · ipureintro; rfl
  iexact H6

/-- The decoder phase's run. -/
theorem runB (c : Dev nD) (i : grid0.Coords) (arg2 : Memref sig .tc .vmem S256x4096 .f32) (harg2 : arg2.IsWhole) (arg3 : Memref sig .tc .vmem S4096x16 .f32) (harg3 : arg3.IsWhole) (arg4 : Memref sig .tc .vmem S256x4096 .f32) (harg4 : arg4.IsWhole) (arg5 : Memref sig .tc .vmem S4096x16 .f32) (harg5 : arg5.IsWhole) (arg6 : Memref sig .tc .vmem S16x4096 .f32) (harg6 : arg6.IsWhole)
    (hc0 : ¬ k0_cond1 i = 1#1) (hc1 : k0_cond2 i = 1#1)
    (s0 : Vec F S4096x16 .f32) (s1 : Vec F S16x4096 .f32) (v8 : Vec F S256x16 .f32)
    (hv8 : ∀ x, s0 ((Rect.unit (s := S4096x16) (k0_off3 i) S256x16.size (k0_off3_inb i hc1)).toLoadRect.idx x) = v8 x)
    (E : Set ℕ) (K : PUnit → sProp 𝕄) :
    iprop(owns (c : Thread nD τ) arg5 fullShare s0 ∗ owns (c : Thread nD τ) arg6 fullShare s1
        ∗ (∃ d, owns (c : Thread nD τ) arg4 fullShare d)
        ∗ (iprop(owns (c : Thread nD τ) arg5 fullShare s0 ∗ owns (c : Thread nD τ) arg6 fullShare s1
            ∗ owns (c : Thread nD τ) arg4 fullShare (k0_pay4 v8 s1)) -∗ K ⟨⟩))
      ⊢ wp frame (wpE (defs₀ (F := F)) Variants.none c none) E (cc0__fused_kernel i arg2 harg2 arg3 harg3 arg4 harg4 arg5 harg5 arg6 harg6) K := by
  simp only [cc0__fused_kernel_eq_skeleton]; unfold cc0__fused_kernel_skel
  unfold owns
  iintro ⟨⟨%f5, %hf5, H5⟩, ⟨%f6, %hf6, H6⟩, ⟨%d4, %f4, -, H4⟩, Hk⟩
  obtain rfl := harg5.eq_unread hf5; obtain rfl := harg6.eq_unread hf6
  sl_exec (disch := first | exact hc0 | exact hc1)
  sl_step
  have e8 : View.readAt (Elt F) arg5.view (Rect.unit (s := S4096x16) (k0_off3 i) S256x16.size (k0_off3_inb i hc1)).toLoadRect (harg5.unread s0) = v8 :=
    funext fun x => (harg5.readAt_unread s0 _ x).trans (hv8 x)
  simp only [e8, load_whole harg6 s1 zeros2]
  iapply Hk
  isplitl [H5]
  · iexists _; isplitr; · ipureintro; exact hf5
    iexact H5
  isplitl [H6]
  · iexists _; isplitr; · ipureintro; exact hf6
    iexact H6
  iexists _; isplitr; swap; · iexact H4
  ipureintro; exact read_store_whole _ _ zeros2 _ _

end Cert.KernelIdeal.Body

end
-- ==== Proof.KernelIdeal.Body.lean ====
/-
  The frame run of the fused kernel, with what its two scratch buffers hold tracked point by point, at any float
  instance.

  The invariant before point n: the first scratch holds row block b of z = adj · W for every b < n (`zb b`), the
  second holds its transpose in column block b (`zt b`); elsewhere both hold anything. An encoder point stores block
  t into rows 256 t … 256 t + 255 (columns for the transpose) and keeps the rest, so the invariant moves from t to
  t + 1. From point 16 on every block is there: the second scratch IS the transposed product `ZT`, the rows the
  decoder loads are `zb (t % 16)`, and the block it stores is `outv t`; the scratches are kept, so the invariant
  stays. During the encoder phase the result window is idle and handed back as found.
-/
import proofs.«174705_g68917045231885_cont_9to1c4b_61_19_alg».proof.Proof.KernelIdeal.Sched
import proofs.«174705_g68917045231885_cont_9to1c4b_61_19_alg».proof.Proof.KernelIdeal.Blocks
import proofs.«174705_g68917045231885_cont_9to1c4b_61_19_alg».proof.Proof.KernelIdeal.Runs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Cert.LibStoreRead

variable (m : (ℓ : Loc nD τ sig) → Buf (Elt F) ℓ) (ρ : Dev nD → PrngReg)

/-! ## The memrefs the body is called with -/

abbrev scM0 : Memref sig .tc .vmem S4096x16 .f32 := Memref.whole cc0_scratch0
abbrev scM1 : Memref sig .tc .vmem S16x4096 .f32 := Memref.whole cc0_scratch1
abbrev ms0 (t : Fin cfg0.N) : Memref sig .tc .vmem S256x4096 .f32 := win0_0.stage (cfg0.slots t 0)
abbrev ms1 (t : Fin cfg0.N) : Memref sig .tc .vmem S4096x16 .f32 := win0_1.stage (cfg0.slots t 1)
abbrev ms2 (t : Fin cfg0.N) : Memref sig .tc .vmem S256x4096 .f32 := win0_2.stage (cfg0.slots t 2)

/-- The class invariant spelt out: both scratches owned at some contents, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The invariant -/

/-- Before point `n`: every row block below `n` of the product is in the first scratch, and its transpose in the
    second. -/
def Inv (c : Dev nD) (n : ℕ) (s0 : Vec F S4096x16 .f32) (s1 : Vec F S16x4096 .f32) : Prop :=
  (∀ b : Fin 16, b.val < n → ∀ (y : S4096x16.Idx) (x : S256x16.Idx),
      (y 0).val = 256 * b.val + (x 0).val → (y 1).val = (x 1).val → s0 y = zb m c b x) ∧
  (∀ b : Fin 16, b.val < n → ∀ (y : S16x4096.Idx) (x : S16x256.Idx),
      (y 0).val = (x 0).val → (y 1).val = 256 * b.val + (x 1).val → s1 y = zt m c b x)

/-- The region invariant before point `n`. -/
def Phi (c : Dev nD) (n : ℕ) : sProp 𝕄 :=
  iprop(∃ s0 s1, ⌜Inv m c n s0 s1⌝ ∗ owns (c : Thread nD τ) scM0 fullShare s0 ∗ owns (c : Thread nD τ) scM1 fullShare s1 ∗ (∃ r, prngReg c r))

theorem inv_zero (c : Dev nD) (s0 : Vec F S4096x16 .f32) (s1 : Vec F S16x4096 .f32) : Inv m c 0 s0 s1 :=
  ⟨fun _ hb => absurd hb (Nat.not_lt_zero _), fun _ hb => absurd hb (Nat.not_lt_zero _)⟩

/-- Once all sixteen blocks are there, more points change nothing. -/
theorem inv_full (c : Dev nD) (n n' : ℕ) (hn : 16 ≤ n) (s0 : Vec F S4096x16 .f32) (s1 : Vec F S16x4096 .f32)
    (h : Inv m c n s0 s1) : Inv m c n' s0 s1 :=
  ⟨fun b _ => h.1 b (lt_of_lt_of_le b.isLt hn), fun b _ => h.2 b (lt_of_lt_of_le b.isLt hn)⟩

/-- An encoder point moves the invariant one block on. -/
theorem inv_step (c : Dev nD) (t : Fin cfg0.N) (ht : t.val < 16)
    (s0 s0' : Vec F S4096x16 .f32) (s1 s1' : Vec F S16x4096 .f32) (hI : Inv m c t.val s0 s1)
    (inb0 : ∀ a, k0_off1 (grid0.coords t) a + S256x16.size a ≤ S4096x16.size a)
    (inb1 : ∀ a, k0_off2 (grid0.coords t) a + S16x256.size a ≤ S16x4096.size a)
    (h0 : Overwrites (s := S4096x16) (e := .f32) (Val := Elt F) (k0_off1 (grid0.coords t)) S256x16.size inb0 s0 s0' (k0_pay2 (iblk m c 0 t) (iblk m c 1 t)))
    (h1 : Overwrites (s := S16x4096) (e := .f32) (Val := Elt F) (k0_off2 (grid0.coords t)) S16x256.size inb1 s1 s1' (k0_pay3 (iblk m c 0 t) (iblk m c 1 t))) :
    Inv m c (t.val + 1) s0' s1' := by
  have hc : ((grid0.coords t) 1).val = t.val := by rw [coord1 t]; omega
  have o10 : k0_off1 (grid0.coords t) 0 = 256 * t.val := by rw [k0_off1_eq]; show 256 * ((grid0.coords t) 1).val = _; rw [hc]
  have o11 : k0_off1 (grid0.coords t) 1 = 0 := by rw [k0_off1_eq]; rfl
  have o20 : k0_off2 (grid0.coords t) 0 = 0 := by rw [k0_off2_eq]; rfl
  have o21 : k0_off2 (grid0.coords t) 1 = 256 * t.val := by rw [k0_off2_eq]; show 256 * ((grid0.coords t) 1).val = _; rw [hc]
  refine ⟨fun b hb y x hy0 hy1 => ?_, fun b hb y x hy0 hy1 => ?_⟩
  · have hx0 : (x 0).val < 256 := (x 0).isLt
    by_cases hbt : b.val < t.val
    · refine (h0.2 y 0 (Or.inl ?_)).trans (hI.1 b hbt y x hy0 hy1)
      rw [o10]; omega
    · have hbe : t = pt b := Fin.ext (by rw [pt_val]; omega)
      subst hbe
      refine h0.1 y x (Fin.forall_fin_two.mpr ⟨?_, ?_⟩)
      · rw [o10, pt_val]; exact hy0
      · rw [o11, Nat.zero_add]; exact hy1
  · have hx1 : (x 1).val < 256 := (x 1).isLt
    by_cases hbt : b.val < t.val
    · refine (h1.2 y 1 (Or.inl ?_)).trans (hI.2 b hbt y x hy0 hy1)
      rw [o21]; omega
    · have hbe : t = pt b := Fin.ext (by rw [pt_val]; omega)
      subst hbe
      refine h1.1 y x (Fin.forall_fin_two.mpr ⟨?_, ?_⟩)
      · rw [o20, Nat.zero_add]; exact hy0
      · rw [o21, pt_val]; exact hy1

/-- With every block there, the second scratch is the transposed product. -/
theorem inv_ZT (c : Dev nD) (n : ℕ) (hn : 16 ≤ n) (s0 : Vec F S4096x16 .f32) (s1 : Vec F S16x4096 .f32)
    (h : Inv m c n s0 s1) : s1 = ZT m c := by
  funext y
  have hy1 : (y 1).val < 4096 := ValueIdx.idx2_lt1 y
  exact h.2 ⟨(y 1).val / 256, by omega⟩ (lt_of_lt_of_le (by show (y 1).val / 256 < 16; omega) hn) y _ rfl
    (by show (y 1).val = 256 * ((y 1).val / 256) + (y 1).val % 256; omega)

/-- With every block there, the rows the decoder loads at point `t` are row block `t % 16` of the product. -/
theorem inv_rows (c : Dev nD) (t : Fin cfg0.N) (ht : 16 ≤ t.val) (s0 : Vec F S4096x16 .f32) (s1 : Vec F S16x4096 .f32)
    (h : Inv m c t.val s0 s1) (inb : ∀ a, k0_off3 (grid0.coords t) a + S256x16.size a ≤ S4096x16.size a)
    (x : (Rect.unit (s := S4096x16) (k0_off3 (grid0.coords t)) S256x16.size inb).toLoadRect.shape.Idx) :
    s0 ((Rect.unit (s := S4096x16) (k0_off3 (grid0.coords t)) S256x16.size inb).toLoadRect.idx x)
      = zb m c ⟨t.val % 16, Nat.mod_lt _ (by norm_num)⟩ x := by
  have o30 : k0_off3 (grid0.coords t) 0 = 256 * (t.val % 16) := by rw [k0_off3_eq]; show 256 * ((grid0.coords t) 1).val = _; rw [coord1 t]
  have o31 : k0_off3 (grid0.coords t) 1 = 0 := by rw [k0_off3_eq]; rfl
  refine h.1 ⟨t.val % 16, Nat.mod_lt _ (by norm_num)⟩ (lt_of_lt_of_le (Nat.mod_lt _ (by norm_num)) ht) _ x ?_ ?_
  · show k0_off3 (grid0.coords t) 0 + 1 * (x 0).val = 256 * (t.val % 16) + (x 0).val
    rw [o30, Nat.one_mul]
  · show k0_off3 (grid0.coords t) 1 + 1 * (x 1).val = (x 1).val
    rw [o31, Nat.one_mul, Nat.zero_add]

/-! ## The proof data -/

/-- The arrays as the region finds them; after the body each input's buffer at its block, the result's at the
    decoder's block; the invariant `Phi`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outv m c t
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outv m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.castSucc = Phi m c t.val from rfl, show (dats m 0 c).Φ t.succ = Phi m c (t.val + 1) from rfl]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  unfold Phi
  by_cases h : t.val < 16
  · rw [Dat.leavesExact_idle (dats m 0 c) 2 t (idle2 t h) (noFlush2 t h)]
    iintro ⟨⟨%s0, %s1, %hI, HS0, HS1, Hg⟩, Ho, ⟨%d0, H0⟩, ⟨%d1, H1⟩, H2⟩
    iapply (runA c (grid0.coords t) _ _ _ _ _ _ _ _ _ _ ((hcond1 t).mpr h) (fun h' => absurd ((hcond2 t).mp h') (by omega)) (iblk m c 0 t) (iblk m c 1 t) s0 s1 Set.univ _)
    isplitl [H0]; · iexact H0
    isplitl [H1]; · iexact H1
    isplitl [HS0]; · iexact HS0
    isplitl [HS1]; · iexact HS1
    iintro ⟨H0, H1, ⟨%s0', %hs0, HS0⟩, ⟨%s1', %hs1, HS1⟩⟩
    isplitl [HS0 HS1 Hg]
    · iexists s0'; iexists s1'; isplitr
      · ipureintro; exact inv_step m c t h s0 s0' s1 s1' hI _ _ hs0 hs1
      isplitl [HS0]; · iexact HS0
      isplitl [HS1]; · iexact HS1
      iexact Hg
    isplitl [Ho]; · iexact Ho
    isplitl [H0]; · iexact H0
    isplitl [H1]; · iexact H1
    iexact H2
  · have h16 : 16 ≤ t.val := Nat.le_of_not_lt h
    rw [show (dats m 0 c).leavesExact 2 t = owns (c : Thread nD τ) (ms2 t) fullShare ((dats m 0 c).after 2 t) from by
      unfold Dat.leavesExact; rw [live2 t h16], after2]
    iintro ⟨⟨%s0, %s1, %hI, HS0, HS1, Hg⟩, Ho, ⟨%d0, H0⟩, ⟨%d1, H1⟩, ⟨%d2, H2⟩⟩
    obtain rfl : s1 = ZT m c := inv_ZT m c t.val h16 s0 s1 hI
    iapply (runB c (grid0.coords t) _ _ _ _ _ _ _ _ _ _ (fun h' => h ((hcond1 t).mp h')) ((hcond2 t).mpr h16) s0 (ZT m c)
      (zb m c ⟨t.val % 16, Nat.mod_lt _ (by norm_num)⟩) (inv_rows m c t h16 s0 (ZT m c) hI _) Set.univ _)
    isplitl [HS0]; · iexact HS0
    isplitl [HS1]; · iexact HS1
    isplitl [H2]; · iexists _; iexact H2
    iintro ⟨HS0, HS1, H2⟩
    isplitl [HS0 HS1 Hg]
    · iexists s0; iexists (ZT m c); isplitr
      · ipureintro; exact inv_full m c t.val (t.val + 1) h16 s0 (ZT m c) hI
      isplitl [HS0]; · iexact HS0
      isplitl [HS1]; · iexact HS1
      iexact Hg
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Into and out of the invariant -/

theorem hin (c : Dev nD) : Pipeline.ΦA spec0 c ⊢ (dats m 0 c).Φ 0 := by
  rw [show (dats m 0 c).Φ 0 = Phi m c 0 from rfl, PhiA_eq]
  unfold Phi
  iintro ⟨⟨⟨%d0, H0⟩, ⟨%d1, H1⟩⟩, Hg⟩
  iexists d0; iexists d1; isplitr
  · ipureintro; exact inv_zero m c d0 d1
  isplitl [H0]; · iexact H0
  isplitl [H1]; · iexact H1
  iexact Hg

theorem hout (c : Dev nD) : (dats m 0 c).Φ (Fin.last cfg0.N) ⊢ Pipeline.ΦA spec0 c := by
  rw [show (dats m 0 c).Φ (Fin.last cfg0.N) = Phi m c (Fin.last cfg0.N).val from rfl, PhiA_eq]
  unfold Phi
  iintro ⟨%s0, %s1, -, H0, H1, Hg⟩
  isplitl [H0 H1]
  · isplitl [H0]
    · iexists _; iexact H0
    iexists _; iexact H1
  iexact Hg

/-! ## The run and the frame -/

set_option backward.isDefEq.respectTransparency.types false in
/-- Every weakly fair execution of @main terminates, and every final state has every array of the pipeline at
    what the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Pay.lean ====
/-
  The kernel body's arithmetic, read at an index.
  The first phase forms a 256-row block of z = adj · W: a matrix product accumulated into
  zero, so entry (r, k) is  Σ_l a[r, l] · w[l, k]  over the 4096 contraction positions.
  It stores the block as it is (a shape cast to the same shape is the identity) and also its
  transpose, whose entry (k, r) is the block's entry (r, k).
  The second phase multiplies a 256-row block of z by the whole of zᵀ, again into zero:
  entry (r, j) is  Σ_k p[r, k] · q[k, j]  over the 16 contraction positions.
  Each statement is over variables of the literal vector types and explicit coordinates.
-/
import proofs.«174705_g68917045231885_cont_9to1c4b_61_19_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.SL.Sem Idealize.ShloMosaic.ValueIdx
open Cert.KernelIdeal Cert.KernelIdeal.Gen

/-! ## The index maps of the two products -/

/-- First product, left operand: its row is the result's row. -/
theorem lhs1_0 (i : S256x16.Idx) (q : dot_S256x4096_S4096x16_S256x16_1_0_0_1_n_n.contr.Idx) :
    (dot_S256x4096_S4096x16_S256x16_1_0_0_1_n_n.lhsIdx i q 0).val = (i 0).val := by
  unfold DotDims.lhsIdx
  rw [dif_neg (show ¬(0 : Fin S256x4096.rank) ∈ dot_S256x4096_S4096x16_S256x16_1_0_0_1_n_n.lhsBatch by decide), dif_pos (show (0 : Fin S256x4096.rank) ∈ dot_S256x4096_S4096x16_S256x16_1_0_0_1_n_n.lhsNonContracting by decide)]
  rfl
/-- First product, left operand: its column is the contraction position. -/
theorem lhs1_1 (i : S256x16.Idx) (q : dot_S256x4096_S4096x16_S256x16_1_0_0_1_n_n.contr.Idx) :
    (dot_S256x4096_S4096x16_S256x16_1_0_0_1_n_n.lhsIdx i q 1).val = (q ⟨0, by decide⟩).val :=
  dot_S256x4096_S4096x16_S256x16_1_0_0_1_n_n.lhsIdx_val_of_single rfl i q
/-- First product, right operand: its row is the contraction position. -/
theorem rhs1_0 (i : S256x16.Idx) (q : dot_S256x4096_S4096x16_S256x16_1_0_0_1_n_n.contr.Idx) :
    (dot_S256x4096_S4096x16_S256x16_1_0_0_1_n_n.rhsIdx i q 0).val = (q ⟨0, by decide⟩).val :=
  dot_S256x4096_S4096x16_S256x16_1_0_0_1_n_n.rhsIdx_val_of_single rfl i q
/-- First product, right operand: its column is the result's column. -/
theorem rhs1_1 (i : S256x16.Idx) (q : dot_S256x4096_S4096x16_S256x16_1_0_0_1_n_n.contr.Idx) :
    (dot_S256x4096_S4096x16_S256x16_1_0_0_1_n_n.rhsIdx i q 1).val = (i 1).val := by
  unfold DotDims.rhsIdx
  rw [dif_neg (show ¬(1 : Fin S4096x16.rank) ∈ dot_S256x4096_S4096x16_S256x16_1_0_0_1_n_n.rhsBatch by decide), dif_pos (show (1 : Fin S4096x16.rank) ∈ dot_S256x4096_S4096x16_S256x16_1_0_0_1_n_n.rhsNonContracting by decide)]
  rfl

/-- Second product, left operand: its row is the result's row. -/
theorem lhs2_0 (i : S256x4096.Idx) (q : dot_S256x16_S16x4096_S256x4096_1_0_0_1_n_n.contr.Idx) :
    (dot_S256x16_S16x4096_S256x4096_1_0_0_1_n_n.lhsIdx i q 0).val = (i 0).val := by
  unfold DotDims.lhsIdx
  rw [dif_neg (show ¬(0 : Fin S256x16.rank) ∈ dot_S256x16_S16x4096_S256x4096_1_0_0_1_n_n.lhsBatch by decide), dif_pos (show (0 : Fin S256x16.rank) ∈ dot_S256x16_S16x4096_S256x4096_1_0_0_1_n_n.lhsNonContracting by decide)]
  rfl
/-- Second product, left operand: its column is the contraction position. -/
theorem lhs2_1 (i : S256x4096.Idx) (q : dot_S256x16_S16x4096_S256x4096_1_0_0_1_n_n.contr.Idx) :
    (dot_S256x16_S16x4096_S256x4096_1_0_0_1_n_n.lhsIdx i q 1).val = (q ⟨0, by decide⟩).val :=
  dot_S256x16_S16x4096_S256x4096_1_0_0_1_n_n.lhsIdx_val_of_single rfl i q
/-- Second product, right operand: its row is the contraction position. -/
theorem rhs2_0 (i : S256x4096.Idx) (q : dot_S256x16_S16x4096_S256x4096_1_0_0_1_n_n.contr.Idx) :
    (dot_S256x16_S16x4096_S256x4096_1_0_0_1_n_n.rhsIdx i q 0).val = (q ⟨0, by decide⟩).val :=
  dot_S256x16_S16x4096_S256x4096_1_0_0_1_n_n.rhsIdx_val_of_single rfl i q
/-- Second product, right operand: its column is the result's column. -/
theorem rhs2_1 (i : S256x4096.Idx) (q : dot_S256x16_S16x4096_S256x4096_1_0_0_1_n_n.contr.Idx) :
    (dot_S256x16_S16x4096_S256x4096_1_0_0_1_n_n.rhsIdx i q 1).val = (i 1).val := by
  unfold DotDims.rhsIdx
  rw [dif_neg (show ¬(1 : Fin S16x4096.rank) ∈ dot_S256x16_S16x4096_S256x4096_1_0_0_1_n_n.rhsBatch by decide), dif_pos (show (1 : Fin S16x4096.rank) ∈ dot_S256x16_S16x4096_S256x4096_1_0_0_1_n_n.rhsNonContracting by decide)]
  rfl

/-! ## The payloads at an index -/

/-- The block of z = adj · W: entry (r, k) is the sum over the 4096 contraction positions. -/
theorem pay1_apply (v6 : Vec Ideal S256x4096 .f32) (v7 : Vec Ideal S4096x16 .f32) (r : Fin 256) (k : Fin 16) :
    Gen.k0_pay1 (F := Ideal) v6 v7 (ValueIdx.ix2 r k) = ∑ l : Fin 4096, v6 (ValueIdx.ix2 r l) * v7 (ValueIdx.ix2 l k) := by
  unfold Gen.k0_pay1
  refine (Ideal.matmul_constant_zero_apply dot_S256x4096_S4096x16_S256x16_1_0_0_1_n_n none v6 v7 (ValueIdx.ix2 r k)).trans ?_
  rw [← Equiv.sum_comp (ValueIdx.contrEquiv1 dot_S256x4096_S4096x16_S256x16_1_0_0_1_n_n 4096 rfl rfl).symm]
  refine Finset.sum_congr rfl fun l _ => ?_
  have hl := ValueIdx.contrEquiv1_symm_val dot_S256x4096_S4096x16_S256x16_1_0_0_1_n_n 4096 rfl rfl l
  have el : dot_S256x4096_S4096x16_S256x16_1_0_0_1_n_n.lhsIdx (ValueIdx.ix2 r k) ((ValueIdx.contrEquiv1 dot_S256x4096_S4096x16_S256x16_1_0_0_1_n_n 4096 rfl rfl).symm l) = ValueIdx.ix2 r l := funext fun a => Fin.ext (by
    match a with
    | ⟨0, _⟩ => exact lhs1_0 _ _
    | ⟨1, _⟩ => exact (lhs1_1 _ _).trans hl)
  have er : dot_S256x4096_S4096x16_S256x16_1_0_0_1_n_n.rhsIdx (ValueIdx.ix2 r k) ((ValueIdx.contrEquiv1 dot_S256x4096_S4096x16_S256x16_1_0_0_1_n_n 4096 rfl rfl).symm l) = ValueIdx.ix2 l k := funext fun a => Fin.ext (by
    match a with
    | ⟨0, _⟩ => exact (rhs1_0 _ _).trans hl
    | ⟨1, _⟩ => exact rhs1_1 _ _)
  rw [el, er]

/-- What the first phase stores into the z scratch: the block itself. -/
theorem pay2_apply (v6 : Vec Ideal S256x4096 .f32) (v7 : Vec Ideal S4096x16 .f32) (r : Fin 256) (k : Fin 16) :
    Gen.k0_pay2 (F := Ideal) v6 v7 (ValueIdx.ix2 r k) = ∑ l : Fin 4096, v6 (ValueIdx.ix2 r l) * v7 (ValueIdx.ix2 l k) := by
  unfold Gen.k0_pay2
  refine (congrFun (shapeCast_self (Gen.k0_pay1 (F := Ideal) v6 v7) shapeCasts_S256x16_S256x16) (ValueIdx.ix2 r k)).trans ?_
  exact pay1_apply v6 v7 r k

/-- What the first phase stores into the zᵀ scratch: entry (k, r) is the block's entry (r, k). -/
theorem pay3_apply (v6 : Vec Ideal S256x4096 .f32) (v7 : Vec Ideal S4096x16 .f32) (k : Fin 16) (r : Fin 256) :
    Gen.k0_pay3 (F := Ideal) v6 v7 (ValueIdx.ix2 k r) = ∑ l : Fin 4096, v6 (ValueIdx.ix2 r l) * v7 (ValueIdx.ix2 l k) := by
  unfold Gen.k0_pay3
  refine (congrFun (shapeCast_self (transpose S16x256 [1, 0] (Gen.k0_pay1 (F := Ideal) v6 v7) transposes_S256x16_p1_0_S16x256) shapeCasts_S16x256_S16x256) (ValueIdx.ix2 k r)).trans ?_
  refine (transpose_apply [1, 0] (Gen.k0_pay1 (F := Ideal) v6 v7) transposes_S256x16_p1_0_S16x256 (ValueIdx.ix2 k r) (ValueIdx.ix2 r k) (fun b => match b with
    | ⟨0, _⟩ => rfl
    | ⟨1, _⟩ => rfl)).trans ?_
  exact pay1_apply v6 v7 r k

/-- The second phase's block of z · zᵀ: entry (r, j) is the sum over the 16 contraction positions. -/
theorem pay4_apply (v8 : Vec Ideal S256x16 .f32) (v9 : Vec Ideal S16x4096 .f32) (r : Fin 256) (j : Fin 4096) :
    Gen.k0_pay4 (F := Ideal) v8 v9 (ValueIdx.ix2 r j) = ∑ k : Fin 16, v8 (ValueIdx.ix2 r k) * v9 (ValueIdx.ix2 k j) := by
  unfold Gen.k0_pay4
  refine (Ideal.matmul_constant_zero_apply dot_S256x16_S16x4096_S256x4096_1_0_0_1_n_n none v8 v9 (ValueIdx.ix2 r j)).trans ?_
  rw [← Equiv.sum_comp (ValueIdx.contrEquiv1 dot_S256x16_S16x4096_S256x4096_1_0_0_1_n_n 16 rfl rfl).symm]
  refine Finset.sum_congr rfl fun k _ => ?_
  have hk := ValueIdx.contrEquiv1_symm_val dot_S256x16_S16x4096_S256x4096_1_0_0_1_n_n 16 rfl rfl k
  have el : dot_S256x16_S16x4096_S256x4096_1_0_0_1_n_n.lhsIdx (ValueIdx.ix2 r j) ((ValueIdx.contrEquiv1 dot_S256x16_S16x4096_S256x4096_1_0_0_1_n_n 16 rfl rfl).symm k) = ValueIdx.ix2 r k := funext fun a => Fin.ext (by
    match a with
    | ⟨0, _⟩ => exact lhs2_0 _ _
    | ⟨1, _⟩ => exact (lhs2_1 _ _).trans hk)
  have er : dot_S256x16_S16x4096_S256x4096_1_0_0_1_n_n.rhsIdx (ValueIdx.ix2 r j) ((ValueIdx.contrEquiv1 dot_S256x16_S16x4096_S256x4096_1_0_0_1_n_n 16 rfl rfl).symm k) = ValueIdx.ix2 k j := funext fun a => Fin.ext (by
    match a with
    | ⟨0, _⟩ => exact (rhs2_0 _ _).trans hk
    | ⟨1, _⟩ => exact rhs2_1 _ _)
  rw [el, er]

end Cert.KernelIdeal.Pay

end
-- ==== Proof.Spec.lean ====
/-
  The function both programs compute on the extended reals, index by index.
  With z[r, k] = Σ_l adj[r, l] · W[l, k] (the encoder's product, 4096 terms),
  the result is out[i, j] = Σ_k z[i, k] · z[j, k] (the decoder's inner products, 16 terms).
  Nothing here needs finiteness: both programs form exactly these sums of products.
-/
import Idealize.ShloMosaic.PureOps.Ideal
import Idealize.ShloMosaic.Lib.ValueIdx

noncomputable section

namespace Cert.Spec

open Idealize.ShloMosaic

/-- Entry (r, k) of the encoder's product adj · W. -/
def zf (A : (⟨2, ![4096, 4096]⟩ : Shape).Idx → EReal) (W : (⟨2, ![4096, 16]⟩ : Shape).Idx → EReal)
    (r : Fin 4096) (k : Fin 16) : EReal :=
  ∑ l : Fin 4096, A (ValueIdx.ix2 r l) * W (ValueIdx.ix2 l k)

/-- The whole result: entry (i, j) is the inner product of rows i and j of adj · W. -/
def G (A : (⟨2, ![4096, 4096]⟩ : Shape).Idx → EReal) (W : (⟨2, ![4096, 16]⟩ : Shape).Idx → EReal) :
    (⟨2, ![4096, 4096]⟩ : Shape).Idx → EReal :=
  fun i => ∑ k : Fin 16, zf A W (i 0) k * zf A W (i 1) k

theorem G_apply (A : (⟨2, ![4096, 4096]⟩ : Shape).Idx → EReal) (W : (⟨2, ![4096, 16]⟩ : Shape).Idx → EReal)
    (r j : Fin 4096) : G A W (ValueIdx.ix2 r j) = ∑ k : Fin 16, zf A W r k * zf A W j k := rfl

end Cert.Spec

end
-- ==== Proof.KernelIdeal.BlockValue.lean ====
/-
  The blocks of the two phases, read at an index, are the specification's entries.
  An element (r, l) of the adjacency's row block t sits in the array at row 256 · t + r, and
  the weights' one block is the whole array. Hence row block b of the encoder's product is
  z[256 · b + r, k] = Σ_l adj[256 · b + r, l] · W[l, k], its transpose has that entry at
  (k, r), and the assembled transposed product has z[j, k] at (k, j), because
  j = 256 · (j / 256) + j % 256. The decoder's block at point t is then, at (r, j),
  Σ_k z[256 · (t % 16) + r, k] · z[j, k]: the specification's G at that index.
  Only sums and products are re-indexed; nothing here needs finiteness.
-/
import proofs.«174705_g68917045231885_cont_9to1c4b_61_19_alg».proof.Proof.KernelIdeal.Sched
import proofs.«174705_g68917045231885_cont_9to1c4b_61_19_alg».proof.Proof.KernelIdeal.Blocks
import proofs.«174705_g68917045231885_cont_9to1c4b_61_19_alg».proof.Proof.Pay
import proofs.«174705_g68917045231885_cont_9to1c4b_61_19_alg».proof.Proof.Spec
import Idealize.ShloMosaic.Lib.ValueIdx
import Idealize.ShloMosaic.Lib.Pipeline.Value

set_option maxRecDepth 16384

noncomputable section

namespace Cert.KernelIdeal.BlockValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Body Idealize.ShloMosaic.ValueIdx

/-! ## Where a window's block element sits in its array -/

section AnyInstance

variable {F : FTy → Type} [FloatOps F]

local notation "𝕄" => MT nD τ sig Unit (Elt F) ℕ (UR sig nD τ) ℕ

variable (m : (ℓ : Loc nD τ sig) → Buf (Elt F) ℓ) (c : Dev nD)

/-- Element (r, l) of the adjacency's row block at a point t of the first phase is the array's
    element (256 · t + r, l). -/
theorem iblk0_apply (t : Fin cfg0.N) (ht : t.val < 16) (r : Fin 256) (l : Fin 4096) :
    (iblk m c 0 t : Vec F S256x4096 .f32) (ix2 r l) = (V m c main_arg0 : Vec F S4096x4096 .f32) (ix2 ⟨256 * t.val + r.val, by omega⟩ l) := by
  have e0 : win0_0.index t (0 : Fin 2) = t.val := by rw [index0 t ht]; rfl
  have e1 : win0_0.index t (1 : Fin 2) = 0 := by rw [index0 t ht]; rfl
  show V m c main_arg0 (((cfg0.win 0).blk t).view.emb (ix2 r l)) = V m c main_arg0 (ix2 ⟨256 * t.val + r.val, by omega⟩ l)
  refine congrArg _ (funext fun a => Fin.ext ?_)
  match a with
  | ⟨0, _⟩ =>
    show win0_0.index t (0 : Fin 2) * 256 + 1 * r.val = 256 * t.val + r.val
    omega
  | ⟨1, _⟩ =>
    show win0_0.index t (1 : Fin 2) * 4096 + 1 * l.val = l.val
    omega

/-- The weights' one block is the whole array. -/
theorem iblk1_apply (t : Fin cfg0.N) (y : S4096x16.Idx) :
    (iblk m c 1 t : Vec F S4096x16 .f32) y = (V m c main_arg1 : Vec F S4096x16 .f32) y := by
  have e0 : win0_1.index t (0 : Fin 2) = 0 := by rw [index1 t]; rfl
  have e1 : win0_1.index t (1 : Fin 2) = 0 := by rw [index1 t]; rfl
  show V m c main_arg1 (((cfg0.win 1).blk t).view.emb y) = V m c main_arg1 y
  refine congrArg _ (funext fun a => Fin.ext ?_)
  match a with
  | ⟨0, _⟩ =>
    show win0_1.index t (0 : Fin 2) * 4096 + 1 * (y 0).val = (y 0).val
    omega
  | ⟨1, _⟩ =>
    show win0_1.index t (1 : Fin 2) * 16 + 1 * (y 1).val = (y 1).val
    omega

end AnyInstance

/-! ## The blocks at the extended reals -/

section AtIdeal

variable (m : (ℓ : Loc nD τ sig) → Buf (Elt Ideal) ℓ) (c : Dev nD)

/-- The sum both stores of the first phase hold at row r and column k of row block b: the
    specification's entry z[256 · b + r, k]. -/
theorem enc_sum (b : Fin 16) (r : Fin 256) (k : Fin 16) (a : Vec Ideal S256x4096 .f32) (w : Vec Ideal S4096x16 .f32)
    (ha : a = iblk m c 0 (pt b)) (hw : w = iblk m c 1 (pt b)) :
    (∑ l : Fin 4096, a (ix2 r l) * w (ix2 l k))
      = Cert.Spec.zf (V m c main_arg0) (V m c main_arg1) ⟨256 * b.val + r.val, by omega⟩ k := by
  subst ha hw
  unfold Cert.Spec.zf
  refine Finset.sum_congr rfl fun l _ => ?_
  exact congrArg₂ (· * ·) (iblk0_apply m c (pt b) (by rw [pt_val]; exact b.isLt) r l) (iblk1_apply m c (pt b) (ix2 l k))

/-- Row block b of the encoder's product, at (r, k). -/
theorem zb_apply (b : Fin 16) (r : Fin 256) (k : Fin 16) :
    zb m c b (ix2 r k) = Cert.Spec.zf (V m c main_arg0) (V m c main_arg1) ⟨256 * b.val + r.val, by omega⟩ k := by
  unfold zb
  exact (Pay.pay2_apply _ _ r k).trans (enc_sum m c b r k _ _ rfl rfl)

/-- Its transpose, at (k, r). -/
theorem zt_apply (b : Fin 16) (k : Fin 16) (r : Fin 256) :
    zt m c b (ix2 k r) = Cert.Spec.zf (V m c main_arg0) (V m c main_arg1) ⟨256 * b.val + r.val, by omega⟩ k := by
  unfold zt
  exact (Pay.pay3_apply _ _ k r).trans (enc_sum m c b r k _ _ rfl rfl)

/-- The assembled transposed product, at (k, j): column j lies in column block j / 256 at
    position j % 256, and 256 · (j / 256) + j % 256 = j. -/
theorem ZT_apply (k : Fin 16) (j : Fin 4096) :
    ZT m c (ix2 k j) = Cert.Spec.zf (V m c main_arg0) (V m c main_arg1) j k := by
  unfold ZT
  refine (zt_apply m c ⟨j.val / 256, by omega⟩ ⟨k.val, k.isLt⟩ ⟨j.val % 256, Nat.mod_lt _ (by norm_num)⟩).trans ?_
  exact congrArg₂ (Cert.Spec.zf (V m c main_arg0) (V m c main_arg1)) (Fin.ext (Nat.div_add_mod j.val 256)) rfl

/-- The decoder's block at point t, at (r, j): the specification's result at row
    256 · (t % 16) + r and column j. -/
theorem outv_apply (t : Fin cfg0.N) (r : Fin 256) (j : Fin 4096) :
    outv m c t (ix2 r j) = Cert.Spec.G (V m c main_arg0) (V m c main_arg1) (ix2 ⟨256 * (t.val % 16) + r.val, by omega⟩ j) := by
  unfold outv
  refine (Pay.pay4_apply _ _ r j).trans ?_
  rw [Cert.Spec.G_apply]
  refine Finset.sum_congr rfl fun k _ => ?_
  exact congrArg₂ (· * ·) (zb_apply m c ⟨t.val % 16, Nat.mod_lt _ (by norm_num)⟩ r k) (ZT_apply m c k j)

end AtIdeal

end Cert.KernelIdeal.BlockValue

end
-- ==== Proof.KernelIdeal.Final.lean ====
/-
  From the decoder's blocks to the whole result array, on the extended reals.
  Decoder point t (16 ≤ t < 32) writes back row block t - 16 of the result, and what it writes is that block of
  G(adj, W): entry (r, j) of the block is Σ_k z[256 (t - 16) + r, k] · z[j, k]. The sixteen row blocks cover the
  array (row i lies in block i / 256, written back at point 16 + i / 256), so the array ends holding G everywhere.
-/
import proofs.«174705_g68917045231885_cont_9to1c4b_61_19_alg».proof.Proof.KernelIdeal.Body
import proofs.«174705_g68917045231885_cont_9to1c4b_61_19_alg».proof.Proof.KernelIdeal.BlockValue
import proofs.«174705_g68917045231885_cont_9to1c4b_61_19_alg».proof.Proof.Spec
import Idealize.ShloMosaic.Lib.Pipeline.Value
import Idealize.ShloMosaic.Lib.ValueIdx

set_option maxRecDepth 16384

noncomputable section

namespace Cert.KernelIdeal.Final

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Cert.KernelIdeal.Body Idealize.ShloMosaic.ValueIdx

variable (m : (ℓ : Loc nD τ sig) → Buf (Elt Ideal) ℓ) (ρ : Dev nD → PrngReg)

/-- The decoder's block at point `t`, at position `j`, is G at the array index `i` that sits `256 (t - 16)` rows
    further down. -/
theorem out_block (c : Dev nD) (t : Fin cfg0.N) (ht : 16 ≤ t.val) (j : S256x4096.Idx) (i : S4096x4096.Idx)
    (h0 : (i 0).val = 256 * (t.val - 16) + (j 0).val) (h1 : (i 1).val = (j 1).val) :
    outv m c t j = Cert.Spec.G (V m c main_arg0) (V m c main_arg1) i := by
  have hN : t.val < 32 := lt_of_lt_of_eq t.isLt (show cfg0.N = 32 from N_0)
  obtain ⟨r, q, rfl⟩ : ∃ (r : Fin 256) (q : Fin 4096), j = ix2 r q := ⟨j 0, j 1, eq_ix2 j⟩
  refine (BlockValue.outv_apply m c t r q).trans (congrArg _ ?_)
  funext a; apply Fin.ext
  match a with
  | ⟨0, _⟩ => show 256 * (t.val % 16) + r.val = (i 0).val; rw [h0]; show _ = 256 * (t.val - 16) + r.val; omega
  | ⟨1, _⟩ => show q.val = (i 1).val; rw [h1]

/-- A point that writes the result back is a decoder point. -/
theorem ge_of_flush (t : Fin cfg0.N) (hf : (cfg0.win 2).flush t = true) : 16 ≤ t.val := by
  by_contra h
  rw [noFlush2 t (Nat.lt_of_not_le h)] at hf
  exact Bool.false_ne_true hf

/-- What a decoder point writes back is its block of G of the argument arrays. -/
theorem flushed_eq (c : Dev nD) (t : Fin cfg0.N) (ht : 16 ≤ t.val) :
    (dats m 0 c).flushed 2 t = ((cfg0.win 2).blk t).view.read (Elt Ideal) (Cert.Spec.G (V m c main_arg0) (V m c main_arg1)) := by
  show (cfg0.win 2).cut (grid0.coords t) ((dats m 0 c).after 2 t) = _
  rw [after2]
  have e0 : win0_2.index t (0 : Fin 2) = t.val - 16 := congrFun (index2 t ht) 0
  have e1 : win0_2.index t (1 : Fin 2) = 0 := congrFun (index2 t ht) 1
  funext j
  refine out_block m c t ht j (((cfg0.win 2).blk t).view.emb j) ?_ ?_
  · show win0_2.index t (0 : Fin 2) * 256 + 1 * (j 0).val = 256 * (t.val - 16) + (j 0).val
    rw [e0]; omega
  · show win0_2.index t (1 : Fin 2) * 4096 + 1 * (j 1).val = (j 1).val
    rw [e1]; omega

/-- An index of the array is in point `t`'s block iff each coordinate is in the block's range on its axis. -/
theorem mem_blk (t : Fin cfg0.N) (i : S4096x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v0).slice (win0_2.rect t)).set ↔ _
  rw [View.set_slice_whole, Rect.mem_set_unit]
  exact Iff.rfl

/-- Every index of the array is in the block of the decoder point of its row block. -/
theorem cover (i : S4096x4096.Idx) :
    ∃ t : Fin cfg0.N, (cfg0.win 2).flush t = true ∧ i ∈ ((cfg0.win 2).blk t).view.set := by
  have hi0 : (i 0).val < 4096 := idx2_lt0 i
  have hi1 : (i 1).val < 4096 := idx2_lt1 i
  have hN : cfg0.N = 32 := N_0
  obtain ⟨t, htv⟩ : ∃ t : Fin cfg0.N, t.val = 16 + (i 0).val / 256 := ⟨⟨16 + (i 0).val / 256, by omega⟩, rfl⟩
  have ht : 16 ≤ t.val := by omega
  have e0 : win0_2.index t (0 : Fin 2) = t.val - 16 := congrFun (index2 t ht) 0
  have e1 : win0_2.index t (1 : Fin 2) = 0 := congrFun (index2 t ht) 1
  refine ⟨t, flush2 t ht, ?_⟩
  rw [mem_blk]
  intro a
  match a with
  | ⟨0, _⟩ =>
    show win0_2.index t (0 : Fin 2) * 256 ≤ (i 0).val ∧ (i 0).val < win0_2.index t (0 : Fin 2) * 256 + 256
    rw [e0]; omega
  | ⟨1, _⟩ =>
    show win0_2.index t (1 : Fin 2) * 4096 ≤ (i 1).val ∧ (i 1).val < win0_2.index t (1 : Fin 2) * 4096 + 4096
    rw [e1]; omega

/-- The result array after the run is G of the argument arrays. -/
theorem final (c : Dev nD) :
    (dats m 0 c).arrAt 2 cfg0.N = Cert.Spec.G (V m c main_arg0) (V m c main_arg1) :=
  (dats m 0 c).arrAt_eq_of_cover 2 _ (fun t hf => flushed_eq m c t (ge_of_flush t hf)) cover

/-- The run, read: the result array holds G of the arguments, which are unchanged. -/
theorem run : θ_run defs (onTc (τ := τ) (main (F := Ideal))) ⟨m, fun _ => 0, ρ⟩ fun r => ∀ c : Dev nD,
      r.2.mem ((c : Thread nD τ).loc main_v0) = Cert.Spec.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Final

end
-- ==== Proof.RefValue.lean ====
/-
  The reference program's result is the specification's function.
  The reference forms z = adj · W (each entry a sum of 4096 products), transposes it, and
  multiplies z by its transpose (each entry a sum of 16 products). Read at an index (i0, i1)
  this is  Σ_k z[i0, k] · zᵀ[k, i1] = Σ_k z[i0, k] · z[i1, k],  with
  z[r, k] = Σ_l adj[r, l] · W[l, k]:  exactly the function G of the specification.
  The only work is to identify the composed index functions of the three operations with the
  coordinate pairs the specification uses.
-/
import proofs.«174705_g68917045231885_cont_9to1c4b_61_19_alg».proof.Proof.Gen.ReferenceIdeal.Read
import proofs.«174705_g68917045231885_cont_9to1c4b_61_19_alg».proof.Proof.Spec

noncomputable section

namespace Cert.RefValue

open Idealize.ShloMosaic Idealize.ShloMosaic.ValueIdx Cert.ReferenceIdeal Cert.ReferenceIdeal.Read

/-- Row index of the left factor: the first product's left operand, read at the row that the
    second product's left operand asks for, is adj at (i0, l). -/
theorem lidx_left (i : S4096x4096.Idx) (k : Fin 16) (l : Fin 4096) :
    lidx_main_v0 (lidx_main_v2 i k) l = ix2 (i 0) l :=
  funext fun a => Fin.ext (by match a with | ⟨0, _⟩ => rfl | ⟨1, _⟩ => rfl)

/-- …and its right operand is W at (l, k). -/
theorem ridx_left (i : S4096x4096.Idx) (k : Fin 16) (l : Fin 4096) :
    ridx_main_v0 (lidx_main_v2 i k) l = ix2 l k :=
  funext fun a => Fin.ext (by match a with | ⟨0, _⟩ => rfl | ⟨1, _⟩ => rfl)

/-- Through the transpose, the second product's right operand at (k, i1) is z at (i1, k):
    its left operand is adj at (i1, l). -/
theorem lidx_right (i : S4096x4096.Idx) (k : Fin 16) (l : Fin 4096) :
    lidx_main_v0 (idx_main_v1 (ridx_main_v2 i k)) l = ix2 (i 1) l :=
  funext fun a => Fin.ext (by match a with | ⟨0, _⟩ => rfl | ⟨1, _⟩ => rfl)

/-- …and its right operand is W at (l, k). -/
theorem ridx_right (i : S4096x4096.Idx) (k : Fin 16) (l : Fin 4096) :
    ridx_main_v0 (idx_main_v1 (ridx_main_v2 i k)) l = ix2 l k :=
  funext fun a => Fin.ext (by match a with | ⟨0, _⟩ => rfl | ⟨1, _⟩ => rfl)

/-- The reference's result, as a function of its two arguments, is G. -/
theorem ref_eq (x0 : (⟨Cert.ReferenceIdeal.S4096x4096, .f32⟩ : BufTy).Contents (Elt Ideal)) (x1 : (⟨Cert.ReferenceIdeal.S4096x16, .f32⟩ : BufTy).Contents (Elt Ideal)) :
    Cert.ReferenceIdeal.Read.val_main_v2 (F := Ideal) x0 x1 = Cert.Spec.G x0 x1 := by
  funext i
  rw [val_main_v2_apply]
  unfold Cert.Spec.G Cert.Spec.zf
  refine Finset.sum_congr rfl fun k _ => ?_
  rw [val_main_v1_apply, val_main_v0_apply, val_main_v0_apply]
  refine congrArg₂ (· * ·) (Finset.sum_congr rfl fun l _ => ?_) (Finset.sum_congr rfl fun l _ => ?_)
  · exact congrArg₂ (· * ·) (congrArg x0 (lidx_left i k l)) (congrArg x1 (ridx_left i k l))
  · exact congrArg₂ (· * ·) (congrArg x0 (lidx_right i k l)) (congrArg x1 (ridx_right i k l))

end Cert.RefValue

end
-- ==== Proof.lean ====
/-
  The fused two-phase kernel against its jnp reference, on the extended reals.

  Both programs compute out[i, j] = Σ_k z[i, k] · z[j, k] with z = adj · W (`Cert.Spec.G`). The reference does it with
  two matrix products and a transpose; its run and its stages read at an index are generated, and `RefValue.ref_eq`
  identifies the composed stages with G. The kernel walks a grid of 2 × 16 points: in the first phase point b computes
  row block b of z from the adjacency's row block b and the weights and keeps it, with its transpose, in two scratch
  buffers; in the second phase point 16 + b multiplies row block b of z by the assembled transpose and writes the
  block of 256 result rows back. The body's run in each phase, the invariant that carries the scratch contents from
  point to point, and the frame run over them are in `Kernel/Body` (the word-level program) and `KernelIdeal/Body`
  (the same text at the other namespace); `KernelIdeal/Final` reads the result array off that run: the sixteen
  written-back blocks tile the array and each is its block of G. No law beyond re-indexing sums is used, so the
  precondition is never opened; nothing was rewritten by the idealisation, so `preserves` is trivial.
-/
import proofs.«174705_g68917045231885_cont_9to1c4b_61_19_alg».proof.Defs
import proofs.«174705_g68917045231885_cont_9to1c4b_61_19_alg».proof.Proof.Gen.Kernel
import proofs.«174705_g68917045231885_cont_9to1c4b_61_19_alg».proof.Proof.Gen.KernelIdeal
import proofs.«174705_g68917045231885_cont_9to1c4b_61_19_alg».proof.Proof.Gen.ReferenceIdeal
import proofs.«174705_g68917045231885_cont_9to1c4b_61_19_alg».proof.Proof.Gen.ReferenceIdeal.Run
import proofs.«174705_g68917045231885_cont_9to1c4b_61_19_alg».proof.Proof.Gen.ReferenceIdeal.Read
import proofs.«174705_g68917045231885_cont_9to1c4b_61_19_alg».proof.Proof.Gen.Pre_finite_inputs
import proofs.«174705_g68917045231885_cont_9to1c4b_61_19_alg».proof.Proof.Kernel.Body
import proofs.«174705_g68917045231885_cont_9to1c4b_61_19_alg».proof.Proof.KernelIdeal.Final
import proofs.«174705_g68917045231885_cont_9to1c4b_61_19_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Body.frame m ρ

/-- So does the kernel read on the extended reals. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories agreeing on adj and W, both programs end with G(adj, W) in their result arrays. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
